-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2 : Shape := ⟨2, ![8192, 2]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x2 32) (main_arg2 : IVec S64 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x2 : Shape := ⟨2, ![8192, 2]⟩
abbrev S64 : Shape := ⟨1, ![64]⟩
abbrev S_ : Shape := ⟨0, ![]⟩
abbrev S8192x2x1 : Shape := ⟨3, ![8192, 2, 1]⟩
abbrev S8 : Shape := ⟨1, ![8]⟩
abbrev S1x8192x2 : Shape := ⟨3, ![1, 8192, 2]⟩
abbrev S8x1x1 : Shape := ⟨3, ![8, 1, 1]⟩
abbrev S8x8192x2 : Shape := ⟨3, ![8, 8192, 2]⟩
abbrev S8x8192 : Shape := ⟨2, ![8, 8192]⟩
abbrev S8x8192x1 : Shape := ⟨3, ![8, 8192, 1]⟩
abbrev S8x8192x4096 : Shape := ⟨3, ![8, 8192, 4096]⟩
abbrev S512x4096 : Shape := ⟨2, ![512, 4096]⟩
abbrev S1x512x1 : Shape := ⟨3, ![1, 512, 1]⟩
abbrev S1x512x4096 : Shape := ⟨3, ![1, 512, 4096]⟩
abbrev S512x1 : Shape := ⟨2, ![512, 1]⟩

abbrev nBuf : Space → Nat
  | .hbm => 23
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S64, .i32⟩
  | .hbm, ⟨3, _⟩ => ⟨S_, .i32⟩
  | .hbm, ⟨4, _⟩ => ⟨S8192x2, .i32⟩
  | .hbm, ⟨5, _⟩ => ⟨S8192x2, .i1⟩
  | .hbm, ⟨6, _⟩ => ⟨S_, .i32⟩
  | .hbm, ⟨7, _⟩ => ⟨S8192x2, .i32⟩
  | .hbm, ⟨8, _⟩ => ⟨S8192x2, .i32⟩
  | .hbm, ⟨9, _⟩ => ⟨S8192x2, .i32⟩
  | .hbm, ⟨10, _⟩ => ⟨S8192x2x1, .i32⟩
  | .hbm, ⟨11, _⟩ => ⟨S8192x2, .i32⟩
  | .hbm, ⟨12, _⟩ => ⟨S8, .i32⟩
  | .hbm, ⟨13, _⟩ => ⟨S1x8192x2, .i32⟩
  | .hbm, ⟨14, _⟩ => ⟨S8x1x1, .i32⟩
  | .hbm, ⟨15, _⟩ => ⟨S8x8192x2, .i32⟩
  | .hbm, ⟨16, _⟩ => ⟨S8x8192x2, .i32⟩
  | .hbm, ⟨17, _⟩ => ⟨S8x8192x2, .i1⟩
  | .hbm, ⟨18, _⟩ => ⟨S_, .i1⟩
  | .hbm, ⟨19, _⟩ => ⟨S8x8192, .i1⟩
  | .hbm, ⟨20, _⟩ => ⟨S8x8192, .f32⟩
  | .hbm, ⟨21, _⟩ => ⟨S8x8192x1, .f32⟩
  | .hbm, ⟨22, _⟩ => ⟨S8x8192x4096, .f32⟩
  | .local _ .vmem, ⟨0, _⟩ => ⟨S512x4096, .f32⟩
  | .local _ .vmem, ⟨1, _⟩ => ⟨S512x4096, .f32⟩
  | .local _ .vmem, ⟨2, _⟩ => ⟨S1x512x1, .f32⟩
  | .local _ .vmem, ⟨3, _⟩ => ⟨S1x512x1, .f32⟩
  | .local _ .vmem, ⟨4, _⟩ => ⟨S1x512x4096, .f32⟩
  | .local _ .vmem, ⟨5, _⟩ => ⟨S1x512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  bcast_S8192x2_S1x8192x2_1_2 : S8192x2.BroadcastsInDim S1x8192x2 (![1, 2] : Fin 2 → Fin S1x8192x2.rank)
  bcast_S8_S8x1x1_0 : S8.BroadcastsInDim S8x1x1 (![0] : Fin 1 → Fin S8x1x1.rank)
  bcast_S1x8192x2_S8x8192x2_0_1_2 : S1x8192x2.BroadcastsInDim S8x8192x2 (![0, 1, 2] : Fin 3 → Fin S8x8192x2.rank)
  bcast_S8x1x1_S8x8192x2_0_1_2 : S8x1x1.BroadcastsInDim S8x8192x2 (![0, 1, 2] : Fin 3 → Fin S8x8192x2.rank)
  reducesTo_S8x8192x2_S8x8192_d2 : S8x8192x2.ReducesTo [2] S8x8192
  h_S_ : 0 < S_.numel
  bcast_S8x8192_S8x8192x1_0_1 : S8x8192.BroadcastsInDim S8x8192x1 (![0, 1] : Fin 2 → Fin S8x8192x1.rank)
  inb_S512x4096_S512x4096_0_0 : ∀ a, (![0, 0] : Fin 2 → Nat) a + S512x4096.size a ≤ S512x4096.size a
  h_S512x4096 : 0 < S512x4096.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  gather_S64_S8192x2x1_S8192x2_n_0_n_n_0_2_1_wf : GatherDims.WF S64 S8192x2x1 S8192x2 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x8192x1.size a
  hwx0_1 : ∀ i : grid0.Coords, EltTy.bits .f32 = 32 ∨ (Rect.block (s := S8x8192x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x8192x4096.size a
  hwx0_2 : ∀ i : grid0.Coords, EltTy.bits .f32 = 32 ∨ (Rect.block (s := S8x8192x4096) S1x512x4096.size (cc0_transform_2 i) (hinb0_2 i)).WholeWords (EltTy.packing .f32)

variable [Facts₀]

def gather_S64_S8192x2x1_S8192x2_n_0_n_n_0_2_1 : GatherDims S64 S8192x2x1 S8192x2 where
  offsetDims := []
  collapsedSliceDims := [0]
  operandBatchingDims := []
  startIndicesBatchingDims := []
  startIndexMap := [0]
  indexVectorDim := 2
  sliceSizes := ![1]
  wf := gather_S64_S8192x2x1_S8192x2_n_0_n_n_0_2_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2 : Shape := ⟨2, ![8192, 2]⟩
abbrev S64 : Shape := ⟨1, ![64]⟩
abbrev S_ : Shape := ⟨0, ![]⟩
abbrev S8192x2x1 : Shape := ⟨3, ![8192, 2, 1]⟩
abbrev S8 : Shape := ⟨1, ![8]⟩
abbrev S1x8192x2 : Shape := ⟨3, ![1, 8192, 2]⟩
abbrev S8x1x1 : Shape := ⟨3, ![8, 1, 1]⟩
abbrev S8x8192x2 : Shape := ⟨3, ![8, 8192, 2]⟩
abbrev S8x8192 : Shape := ⟨2, ![8, 8192]⟩
abbrev S8x8192x1 : Shape := ⟨3, ![8, 8192, 1]⟩
abbrev S1x8192x4096 : Shape := ⟨3, ![1, 8192, 4096]⟩
abbrev S8x8192x4096 : Shape := ⟨3, ![8, 8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S64, .i32⟩
  | .hbm, ⟨3, _⟩ => ⟨S_, .i32⟩
  | .hbm, ⟨4, _⟩ => ⟨S8192x2, .i32⟩
  | .hbm, ⟨5, _⟩ => ⟨S8192x2, .i1⟩
  | .hbm, ⟨6, _⟩ => ⟨S_, .i32⟩
  | .hbm, ⟨7, _⟩ => ⟨S8192x2, .i32⟩
  | .hbm, ⟨8, _⟩ => ⟨S8192x2, .i32⟩
  | .hbm, ⟨9, _⟩ => ⟨S8192x2, .i32⟩
  | .hbm, ⟨10, _⟩ => ⟨S8192x2x1, .i32⟩
  | .hbm, ⟨11, _⟩ => ⟨S8192x2, .i32⟩
  | .hbm, ⟨12, _⟩ => ⟨S8, .i32⟩
  | .hbm, ⟨13, _⟩ => ⟨S1x8192x2, .i32⟩
  | .hbm, ⟨14, _⟩ => ⟨S8x1x1, .i32⟩
  | .hbm, ⟨15, _⟩ => ⟨S8x8192x2, .i32⟩
  | .hbm, ⟨16, _⟩ => ⟨S8x8192x2, .i32⟩
  | .hbm, ⟨17, _⟩ => ⟨S8x8192x2, .i1⟩
  | .hbm, ⟨18, _⟩ => ⟨S_, .i1⟩
  | .hbm, ⟨19, _⟩ => ⟨S8x8192, .i1⟩
  | .hbm, ⟨20, _⟩ => ⟨S8x8192x1, .i1⟩
  | .hbm, ⟨21, _⟩ => ⟨S8x8192x1, .f32⟩
  | .hbm, ⟨22, _⟩ => ⟨S1x8192x4096, .f32⟩
  | .hbm, ⟨23, _⟩ => ⟨S8x8192x4096, .f32⟩
  | .hbm, ⟨24, _⟩ => ⟨S8x8192x4096, .f32⟩
  | .hbm, ⟨25, _⟩ => ⟨S8x8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  bcast_S8192x2_S1x8192x2_1_2 : S8192x2.BroadcastsInDim S1x8192x2 (![1, 2] : Fin 2 → Fin S1x8192x2.rank)
  bcast_S8_S8x1x1_0 : S8.BroadcastsInDim S8x1x1 (![0] : Fin 1 → Fin S8x1x1.rank)
  bcast_S1x8192x2_S8x8192x2_0_1_2 : S1x8192x2.BroadcastsInDim S8x8192x2 (![0, 1, 2] : Fin 3 → Fin S8x8192x2.rank)
  bcast_S8x1x1_S8x8192x2_0_1_2 : S8x1x1.BroadcastsInDim S8x8192x2 (![0, 1, 2] : Fin 3 → Fin S8x8192x2.rank)
  reducesTo_S8x8192x2_S8x8192_d2 : S8x8192x2.ReducesTo [2] S8x8192
  h_S_ : 0 < S_.numel
  bcast_S8x8192_S8x8192x1_0_1 : S8x8192.BroadcastsInDim S8x8192x1 (![0, 1] : Fin 2 → Fin S8x8192x1.rank)
  bcast_S8192x4096_S1x8192x4096_1_2 : S8192x4096.BroadcastsInDim S1x8192x4096 (![1, 2] : Fin 2 → Fin S1x8192x4096.rank)
  bcast_S8x8192x1_S8x8192x4096_0_1_2 : S8x8192x1.BroadcastsInDim S8x8192x4096 (![0, 1, 2] : Fin 3 → Fin S8x8192x4096.rank)
  bcast_S1x8192x4096_S8x8192x4096_0_1_2 : S1x8192x4096.BroadcastsInDim S8x8192x4096 (![0, 1, 2] : Fin 3 → Fin S8x8192x4096.rank)
  gather_S64_S8192x2x1_S8192x2_n_0_n_n_0_2_1_wf : GatherDims.WF S64 S8192x2x1 S8192x2 [] [0] [] [0] [] 2 ![1]

variable [Facts₀]

def gather_S64_S8192x2x1_S8192x2_n_0_n_n_0_2_1 : GatherDims S64 S8192x2x1 S8192x2 where
  offsetDims := []
  collapsedSliceDims := [0]
  operandBatchingDims := []
  startIndicesBatchingDims := []
  startIndexMap := [0]
  indexVectorDim := 2
  sliceSizes := ![1]
  wf := gather_S64_S8192x2x1_S8192x2_n_0_n_n_0_2_1_wf

class Facts : Prop extends Facts₀ where

variable [Facts]
-- ==== Proof.TokenCopies.lean ====
/-
  Sending tokens to devices.

  A token is a row of 4096 numbers; there are 8192 tokens and 8 devices. Each token names two experts, every
  expert lives on one device, and the routing bit `M d t` is set exactly when one of token `t`'s two experts
  lives on device `d`. Every device receives a copy of every token: the token's own row where its bit is set,
  a row of zeros where it is not. Index by index the copy is the product

      x t h · [M d t]          (the bit read as the number 0 or 1)

  taken on the extended reals, where an entry of `x` may also be +∞ or −∞. Multiplication there is
  commutative with no side condition (0 · ±∞ and ±∞ · 0 are both 0), so writing the bit first or the entry
  first names the same number, and nothing has to be assumed finite.
-/
import Idealize.ShloMosaic.PureOps.Ideal
import Idealize.ShloMosaic.Lib.ValueIdx

noncomputable section

namespace Cert.Dispatch

open Idealize.ShloMosaic Idealize.ShloMosaic.ValueIdx

/-- A routing bit read as a number: 0 or 1. -/
abbrev bitValue (b : BitVec 1) : Ideal .f32 := FloatOps.uitofp (F := Ideal) .f32 b

/-- All eight devices' copies of the tokens: at device `d`, token `t`, position `h` the entry `x t h` times
    the routing bit of `(d, t)`. The entry depends on one entry of `x` and on one bit; the position `h` does
    not enter the bit and the device `d` does not enter the entry. -/
def copies (x : FVec Ideal ⟨2, ![8192, 4096]⟩ .f32) (M : IVec ⟨2, ![8, 8192]⟩ 1) :
    FVec Ideal ⟨3, ![8, 8192, 4096]⟩ .f32 :=
  fun i => x (ix2 (i 1 : Fin 8192) (i 2 : Fin 4096)) * bitValue (M (ix2 (i 0 : Fin 8) (i 1 : Fin 8192)))

/-- The same copy with the bit written first: multiplication of extended reals is commutative. -/
theorem bit_first (x : FVec Ideal ⟨2, ![8192, 4096]⟩ .f32) (M : IVec ⟨2, ![8, 8192]⟩ 1)
    (i : (⟨3, ![8, 8192, 4096]⟩ : Shape).Idx) :
    bitValue (M (ix2 (i 0 : Fin 8) (i 1 : Fin 8192))) * x (ix2 (i 1 : Fin 8192) (i 2 : Fin 4096)) = copies x M i :=
  mul_comm _ _

end Cert.Dispatch

end
-- ==== Proof.RoutingColumn.lean ====
/-
  The second operand of the launch: the routing bits as a column of numbers.

  Before the launch the program looks up, for each token, the devices of its two experts, compares them with
  each of the eight device numbers, and joins the two comparisons by "or": that is the routing bit of a device
  and a token. The bits are then read as the numbers 0 and 1 and laid out with one more axis of extent one, a
  column `[8, 8192, 1]`, which is the array the launch stages block by block. At the index `(d, t, 0)` the
  column holds the bit of `(d, t)` as a number. The integer arithmetic that produces the bits is kept as ONE
  term of the two integer arguments and is never opened: the proof needs only that it is a function of them.
-/
import proofs.«160965_j15822659519277_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Routing

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The routing bits as the program computes them from its two integer arguments (`experts`: each token's two
    expert numbers; `home`: each expert's device): a negative expert number is first moved up by 64, the
    devices are looked up, compared with the device numbers 0 … 7, and the two comparisons of a token joined by
    "or". -/
def routingBits (experts : (⟨S8192x2, .i32⟩ : BufTy).Contents (Elt F)) (home : (⟨S64, .i32⟩ : BufTy).Contents (Elt F)) :
    (⟨S8x8192, .i1⟩ : BufTy).Contents (Elt F) :=
  Host.reduce IntOp.ori (cmpi .eq (broadcastInDim S8x8192x2 ![0, 1, 2] bcast_S1x8192x2_S8x8192x2_0_1_2 (broadcastInDim S1x8192x2 ![1, 2] bcast_S8192x2_S1x8192x2_1_2 (Host.gather gather_S64_S8192x2x1_S8192x2_n_0_n_n_0_2_1 home (broadcastInDim S8192x2x1 ![0, 1] bcast_S8192x2_S8192x2x1_0_1 (select (cmpi .slt experts (broadcastInDim S8192x2 ![] bcast_S_S8192x2 (constantI S_ 32 0#32))) (addi experts (broadcastInDim S8192x2 ![] bcast_S_S8192x2 (constantI S_ 32 64#32))) experts))))) (broadcastInDim S8x8192x2 ![0, 1, 2] bcast_S8x1x1_S8x8192x2_0_1_2 (broadcastInDim S8x1x1 ![0] bcast_S8_S8x1x1_0 (iotaInDim S8 32 0)))) (constantI S_ 1 0#1) reducesTo_S8x8192x2_S8x8192_d2 h_S_

variable (m : (ℓ : Loc nD τ sig) → Buf (Elt F) ℓ)

/-- What the launch finds in its second operand's array: the routing bits of the two integer arguments, read as
    numbers and laid out as a column. -/
theorem column_eq (c : Dev nD) :
    (V m c main_v15 : (⟨S8x8192x1, .f32⟩ : BufTy).Contents (Elt F))
      = broadcastInDim S8x8192x1 ![0, 1] bcast_S8x8192_S8x8192x1_0_1
          (uitofp .f32 (routingBits (F := F) (m ((c : Thread nD τ).loc main_arg1)) (m ((c : Thread nD τ).loc main_arg2)))) := by
  dsimp only [Gen.V, Gen.hostOps0]
  after_results
  rfl

/-- The column at `(d, t, 0)` is the bit of `(d, t)` as a number. -/
theorem column_apply (c : Dev nD) (j : S8x8192x1.Idx) :
    (V m c main_v15 : (⟨S8x8192x1, .f32⟩ : BufTy).Contents (Elt F)) j
      = FloatOps.uitofp .f32 (routingBits (F := F) (m ((c : Thread nD τ).loc main_arg1)) (m ((c : Thread nD τ).loc main_arg2))
          (ix2 (j 0 : Fin 8) (j 1 : Fin 8192))) := by
  rw [column_eq]
  generalize routingBits (F := F) (m ((c : Thread nD τ).loc main_arg1)) (m ((c : Thread nD τ).loc main_arg2)) = bits
  exact broadcastInDim_apply _ bcast_S8x8192_S8x8192x1_0_1 (uitofp .f32 bits) j (ix2 (j 0 : Fin 8) (j 1 : Fin 8192))
    (fun a => match a with
      | ⟨0, _⟩ => by show (j 0).val = if (8 : Nat) = 1 then 0 else (j 0).val; rw [if_neg (by decide)]
      | ⟨1, _⟩ => by show (j 1).val = if (8192 : Nat) = 1 then 0 else (j 1).val; rw [if_neg (by decide)])

end Cert.KernelIdeal.Routing

end
-- ==== Proof.CopyBlocks.lean ====
/-
  From the blocks the launch writes to the whole output array.

  The launch walks a grid of 16 × 8 points: the block `ti` of 512 tokens outside, the device `di` inside. At the
  point `(ti, di)` it stages block `ti` of the token rows (512 tokens, all 4096 positions), block `(di, ti)` of
  the bit column (512 bits of device `di`), and writes back block `(di, ti)` of the output (device `di`, 512
  tokens, all positions). The body multiplies every staged token entry by the staged bit of its row. Read at
  the array's own indices, what the point leaves at `(d, t, h)` is `x t h · column (d, t, 0)`: the point's block
  of ONE function of the two staged arrays, because a block's coordinate is the block index times the block's
  extent plus the coordinate inside the block, and the three index maps agree on the token axis and on the
  device axis. The 128 blocks fill the output array — the block that holds `(d, t, h)` is `(d, t / 512)` — so
  after the run the array IS that function; with the column read as the routing bits, it is the copies.
-/
import proofs.«160965_j15822659519277_2_alg».proof.Proof.Gen.KernelIdeal.Value
import proofs.«160965_j15822659519277_2_alg».proof.Proof.RoutingColumn
import proofs.«160965_j15822659519277_2_alg».proof.Proof.TokenCopies

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Token rows times a bit column: at `(d, t, h)` the row entry `(t, h)` times the column entry `(d, t, 0)`. -/
abbrev rowsByColumn (rows : S8192x4096.Idx → Elt F .f32) (column : S8x8192x1.Idx → Elt F .f32) :
    S8x8192x4096.Idx → Elt F .f32 :=
  fun i => FloatOps.mulf (rows (ix2 (i 1 : Fin 8192) (i 2 : Fin 4096))) (column (ix3 (i 0 : Fin 8) (i 1 : Fin 8192) (0 : Fin 1)))

/-- What the body leaves in the output's staging buffer, for ANY staged blocks: at `(0, r, h)` the staged token
    entry `(r, h)` times the staged bit `(0, r, 0)` of its row. -/
theorem staged_eq (x0 : Vec F S512x4096 .f32) (x1 : Vec F S1x512x1 .f32) (y : S1x512x4096.Idx) :
    out0_2 x0 x1 y = FloatOps.mulf (x0 (Value.ix2_0 y)) (x1 (Value.ix2_1 y)) := by
  unfold out0_2
  rw [Value.canon2_eq]
  simp only [View.ld_unit_zero (S := S512x4096) zeros2, View.ld_unit_zero (S := S1x512x1) zeros3]

/-- The three index maps over the 128 grid points: the token rows' block follows the output's token-block and
    takes all positions; the column's block is the output's device and token-block; the output's block indices
    stay in range. -/
theorem block_indices : ∀ t : Fin cfg0.N,
    win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = win0_2.index t (1 : Fin 3)
    ∧ win0_1.index t (2 : Fin 3) = 0
    ∧ win0_2.index t (2 : Fin 3) = 0
    ∧ win0_2.index t (0 : Fin 3) ≤ 7
    ∧ win0_2.index t (1 : Fin 3) ≤ 15 :=
  (by decide +kernel : ∀ t : Fin grid0.N, _)

/-- Every device and every block of 512 tokens is SOME grid point's output block. -/
theorem block_onto : ∀ (d : Fin 8) (tb : Fin 16), ∃ t : Fin cfg0.N, win0_2.index t = ![d.val, tb.val, 0] :=
  (by decide +kernel : ∀ (d : Fin 8) (tb : Fin 16), ∃ t : Fin grid0.N, win0_2.index t = ![d.val, tb.val, 0])

/-- WHAT A GRID POINT WRITES BACK is its block of the rows times the column, as the launch finds the two arrays. -/
theorem flushed_eq (c : Dev nD) (t : Fin cfg0.N) :
    (dats m 0 c).flushed 2 t
      = ((cfg0.win 2).blk t).view.read (Elt F) (rowsByColumn (V m c main_arg0) (V m c main_v15)) := by
  rw [Value.flushed2]
  obtain ⟨e0, e1, e2, e3, e4, e5, -, -⟩ := block_indices t
  funext j
  refine (staged_eq (iblk m c 0 t) (iblk m c 1 t) j).trans ?_
  have hj0 : (j 0).val < 1 := (j 0).isLt
  show FloatOps.mulf (V m c main_arg0 (((cfg0.win 0).blk t).view.emb (Value.ix2_0 j)))
        (V m c main_v15 (((cfg0.win 1).blk t).view.emb (Value.ix2_1 j)))
      = FloatOps.mulf
        (V m c main_arg0 (ix2 ((((cfg0.win 2).blk t).view.emb j) 1 : Fin 8192) ((((cfg0.win 2).blk t).view.emb j) 2 : Fin 4096)))
        (V m c main_v15 (ix3 ((((cfg0.win 2).blk t).view.emb j) 0 : Fin 8) ((((cfg0.win 2).blk t).view.emb j) 1 : Fin 8192) (0 : Fin 1)))
  have hrow : ((cfg0.win 0).blk t).view.emb (Value.ix2_0 j)
      = ix2 ((((cfg0.win 2).blk t).view.emb j) 1 : Fin 8192) ((((cfg0.win 2).blk t).view.emb j) 2 : Fin 4096) := by
    funext a; apply Fin.ext
    match a with
    | ⟨0, _⟩ => show win0_0.index t (0 : Fin 2) * 512 + 1 * (j 1).val = win0_2.index t (1 : Fin 3) * 512 + 1 * (j 1).val; omega
    | ⟨1, _⟩ => show win0_0.index t (1 : Fin 2) * 4096 + 1 * (j 2).val = win0_2.index t (2 : Fin 3) * 4096 + 1 * (j 2).val; omega
  have hbit : ((cfg0.win 1).blk t).view.emb (Value.ix2_1 j)
      = ix3 ((((cfg0.win 2).blk t).view.emb j) 0 : Fin 8) ((((cfg0.win 2).blk t).view.emb j) 1 : Fin 8192) (0 : Fin 1) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 512 + 1 * (j 1).val = win0_2.index t (1 : Fin 3) * 512 + 1 * (j 1).val; omega
    | ⟨2, _⟩ => show win0_1.index t (2 : Fin 3) * 1 + 1 * 0 = 0; omega
  rw [hrow, hbit]
  rfl

/-- An index of the output array is in a grid point's block iff each coordinate is in the block's range on its axis. -/
theorem mem_block (t : Fin cfg0.N) (i : S8x8192x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v16).slice (win0_2.rect t)).set ↔ _
  rw [View.set_slice_whole, Rect.mem_set_unit]
  exact Iff.rfl

/-- The blocks fill the array: `(d, t, h)` lies in the block of device `d` and token-block `t / 512`. -/
theorem covered (i : S8x8192x4096.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 4096 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- THE OUTPUT ARRAY after the run is the rows times the column. -/
theorem final (c : Dev nD) :
    (dats m 0 c).arrAt 2 cfg0.N = rowsByColumn (V m c main_arg0) (V m c main_v15) :=
  (dats m 0 c).arrAt_eq_of_cover 2 (rowsByColumn (V m c main_arg0) (V m c main_v15)) (fun t _ => flushed_eq m c t) covered

/-- The run, with the output array named: rows times column, the arguments unchanged. -/
theorem run : θ_run defs (onTc (τ := τ) (main (F := F))) ⟨m, fun _ => 0, ρ⟩ fun r => ∀ c : Dev nD,
      r.2.mem ((c : Thread nD τ).loc main_v16) = rowsByColumn (V m c main_arg0) (V m c main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- On the extended reals, with the token rows as launched and the column read as the routing bits, the rows
    times the column are the copies. -/
theorem rowsByColumn_eq_copies (mI : (ℓ : Loc nD τ sig) → Buf (Elt Ideal) ℓ) (c : Dev nD) :
    rowsByColumn (F := Ideal) (V mI c main_arg0) (V mI c main_v15)
      = Cert.Dispatch.copies (mI ((c : Thread nD τ).loc main_arg0))
          (Routing.routingBits (F := Ideal) (mI ((c : Thread nD τ).loc main_arg1)) (mI ((c : Thread nD τ).loc main_arg2))) := by
  funext i
  show FloatOps.mulf (F := Ideal) (φ := .f32) (V mI c main_arg0 (ix2 (i 1 : Fin 8192) (i 2 : Fin 4096)))
      ((V mI c main_v15 : (⟨S8x8192x1, .f32⟩ : BufTy).Contents (Elt Ideal)) (ix3 (i 0 : Fin 8) (i 1 : Fin 8192) (0 : Fin 1))) = _
  rw [V_main_arg0, Routing.column_apply]
  rfl

/-- The idealized kernel's run: the output array ends at the copies of the token rows by the routing bits. -/
theorem run_copies (mI : (ℓ : Loc nD τ sig) → Buf (Elt Ideal) ℓ) (ρ : Dev nD → PrngReg) :
    θ_run defs (onTc (τ := τ) (main (F := Ideal))) ⟨mI, fun _ => 0, ρ⟩ fun r => ∀ c : Dev nD,
      r.2.mem ((c : Thread nD τ).loc main_v16)
        = Cert.Dispatch.copies (mI ((c : Thread nD τ).loc main_arg0))
            (Routing.routingBits (F := Ideal) (mI ((c : Thread nD τ).loc main_arg1)) (mI ((c : Thread nD τ).loc main_arg2)))
      ∧ r.2.mem ((c : Thread nD τ).loc main_arg0) = mI ((c : Thread nD τ).loc main_arg0)
      ∧ r.2.mem ((c : Thread nD τ).loc main_arg1) = mI ((c : Thread nD τ).loc main_arg1)
      ∧ r.2.mem ((c : Thread nD τ).loc main_arg2) = mI ((c : Thread nD τ).loc main_arg2) :=
  (θ_run defs _ _).mono (fun r h c => ⟨(h c).1.trans (rowsByColumn_eq_copies mI c), (h c).2⟩) (run (F := Ideal) mI ρ)

end Cert.KernelIdeal.Blocks

end
-- ==== Proof.ReferenceCopies.lean ====
/-
  The reference computes the copies with the bit written first.

  The reference forms the same routing bits, gives them one more axis of extent one, reads them as numbers,
  repeats the column along the 4096 positions, repeats the token rows along the 8 devices, and multiplies:
  at `(d, t, h)` the bit of `(d, t)` as a number times `x t h`. Giving the bits the extra axis before or after
  reading them as numbers makes no difference at any index. So the result is the copies of the specification,
  by the commutativity of the product.
-/
import proofs.«160965_j15822659519277_2_alg».proof.Proof.Gen.ReferenceIdeal.Read
import proofs.«160965_j15822659519277_2_alg».proof.Proof.TokenCopies

noncomputable section

namespace Cert.ReferenceIdeal.Copies

open Cert.ReferenceIdeal Cert.ReferenceIdeal.Gen Idealize.ShloMosaic Idealize.ShloMosaic.TcCoe
open Idealize.ShloMosaic.ValueIdx Cert.ReferenceIdeal.Read

/-- The reference's result, as a function of its three arguments, is the copies of the token rows by the
    reference's own routing bits (its or-reduction stage). -/
theorem result_eq (x0 : (⟨S8192x4096, .f32⟩ : BufTy).Contents (Elt Ideal)) (x1 : (⟨S8192x2, .i32⟩ : BufTy).Contents (Elt Ideal))
    (x2 : (⟨S64, .i32⟩ : BufTy).Contents (Elt Ideal)) :
    val_main_v19 (F := Ideal) x0 x1 x2 = Cert.Dispatch.copies x0 (val_main_v13 (F := Ideal) x1 x2) := by
  funext i
  have ebit : idx_main_v14 (idx_main_v17 i) = ix2 (i 0 : Fin 8) (i 1 : Fin 8192) :=
    funext fun a => Fin.ext (by match a with | ⟨0, _⟩ => rfl | ⟨1, _⟩ => rfl)
  have erow : idx_main_v16 (idx_main_v18 i) = ix2 (i 1 : Fin 8192) (i 2 : Fin 4096) :=
    funext fun a => Fin.ext (by match a with | ⟨0, _⟩ => rfl | ⟨1, _⟩ => rfl)
  rw [val_main_v19_apply, val_main_v17_apply, val_main_v15_apply, val_main_v14_apply, val_main_v18_apply,
    val_main_v16_apply, ebit, erow]
  exact Cert.Dispatch.bit_first x0 (val_main_v13 (F := Ideal) x1 x2) i

end Cert.ReferenceIdeal.Copies

end
-- ==== Proof.SameRouting.lean ====
/-
  Both programs compute the routing bits by the same arithmetic.

  The program with the launch and the reference begin with the same integer operations on the same two integer
  arguments: move a negative expert number up by 64, look up each chosen expert's device, compare with the
  device numbers 0 … 7, join a token's two comparisons by "or". Operation by operation the two terms are the
  same, over shapes and dimension records that are equal, so the reference's or-reduction stage IS the routing
  bits of the other program: no property of the lookup or of the reduction is used, only that both sides apply
  the same functions to the same arguments.
-/
import proofs.«160965_j15822659519277_2_alg».proof.Proof.RoutingColumn
import proofs.«160965_j15822659519277_2_alg».proof.Proof.Gen.ReferenceIdeal.Read

noncomputable section

namespace Cert.Dispatch

open Idealize.ShloMosaic

/-- The reference's routing bits are the routing bits of the program with the launch, as functions of the two
    integer arguments. -/
theorem bits_eq (experts : (⟨Cert.ReferenceIdeal.S8192x2, .i32⟩ : BufTy).Contents (Elt Ideal))
    (home : (⟨Cert.ReferenceIdeal.S64, .i32⟩ : BufTy).Contents (Elt Ideal)) :
    Cert.ReferenceIdeal.Read.val_main_v13 (F := Ideal) experts home
      = Cert.KernelIdeal.Routing.routingBits (F := Ideal) experts home := rfl

end Cert.Dispatch

end
-- ==== Proof.lean ====
/-
  Dispatching tokens to devices: the launch against the plain formula.

  There are 8192 tokens, each a row of 4096 numbers, and 8 devices. Each token names two experts; each of
  the 64 experts lives on one device; the routing bit of a device `d` and a token `t` is set exactly when one
  of the token's two experts lives on `d`. Both programs compute these bits by the same integer arithmetic
  (Proof/SameRouting.lean) and both return, for every device, token and position, the token's entry where
  the bit is set and zero where it is not:

      out d t h  =  x t h · [bit d t]          (the bit read as the number 0 or 1).

  The program with the launch reads the bits as numbers, lays them out as a column, and lets a grid of
  16 × 8 points multiply a block of 512 token rows by the matching 512 bits of one device; the 128 blocks it
  writes fill the output (Proof/RoutingColumn.lean, Proof/CopyBlocks.lean). The reference repeats the column
  along the positions and the rows along the devices and multiplies the two whole arrays, the bit first
  (Proof/ReferenceCopies.lean). The two results are one function (Proof/TokenCopies.lean) because the
  product of extended reals is commutative — at 0 · ±∞ as everywhere else — so the claim needs no entry to be
  finite and the precondition is never opened. Nothing was rewritten when the program was idealized, so that
  the idealization is faithful has nothing to state.

  Each program terminates without a fault and leaves its arguments as they were: for the two programs with
  the launch this is the generated frame; for the reference it is its generated run with the result dropped.
-/
import proofs.«160965_j15822659519277_2_alg».proof.Defs
import proofs.«160965_j15822659519277_2_alg».proof.Proof.Gen.Kernel
import proofs.«160965_j15822659519277_2_alg».proof.Proof.Gen.Kernel.Frame
import proofs.«160965_j15822659519277_2_alg».proof.Proof.Gen.KernelIdeal
import proofs.«160965_j15822659519277_2_alg».proof.Proof.Gen.KernelIdeal.Frame
import proofs.«160965_j15822659519277_2_alg».proof.Proof.Gen.KernelIdeal.Value
import proofs.«160965_j15822659519277_2_alg».proof.Proof.Gen.ReferenceIdeal
import proofs.«160965_j15822659519277_2_alg».proof.Proof.Gen.ReferenceIdeal.Run
import proofs.«160965_j15822659519277_2_alg».proof.Proof.Gen.ReferenceIdeal.Read
import proofs.«160965_j15822659519277_2_alg».proof.Proof.Gen.Pre_finite_inputs
import proofs.«160965_j15822659519277_2_alg».proof.Proof.TokenCopies
import proofs.«160965_j15822659519277_2_alg».proof.Proof.RoutingColumn
import proofs.«160965_j15822659519277_2_alg».proof.Proof.CopyBlocks
import proofs.«160965_j15822659519277_2_alg».proof.Proof.ReferenceCopies
import proofs.«160965_j15822659519277_2_alg».proof.Proof.SameRouting
import Idealize.ShloMosaic.Adequacy
import Idealize.ShloMosaic.Init

noncomputable section

namespace Cert.Proof

open Idealize.ShloMosaic Idealize.ShloMosaic.TcCoe Idealize.SL.Sem

/-- The program with the launch, word for word: it runs and its arguments end unchanged. -/
theorem frame_kernel : Cert.frame_Kernel := fun m ρ _ => Cert.Kernel.Gen.frame m ρ

/-- The same program on the extended reals. -/
theorem frame_kernelIdeal : Cert.frame_KernelIdeal := fun m ρ _ => Cert.KernelIdeal.Gen.frame m ρ

/-- The reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the program was idealized. -/
theorem preserves : Cert.preserves_Kernel_KernelIdeal := trivial

/-- From memories that agree on the three arguments both programs end with the copies of the token rows by the
    routing bits: the launch's blocks fill the output with the entry times the bit, the reference multiplies the
    bit by the entry, the bits are the same on both sides, and the product is commutative. -/
theorem algebraic : Cert.algebraic_KernelIdeal_ReferenceIdeal := by
  intro m ρ m' ρ' _ hagree
  refine ⟨_, Cert.KernelIdeal.Blocks.run_copies m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Copies.result_eq, Cert.Dispatch.bits_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
